-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1024 : Shape := ⟨2, ![8192, 1024]⟩
abbrev S4096x1024 : Shape := ⟨2, ![4096, 1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S4096x1024 : S_.BroadcastsInDim S4096x1024 (![] : Fin 0 → Fin S4096x1024.rank)
  reducesTo_S4096x1024_S_d0_1 : S4096x1024.ReducesTo [0, 1] S_

variable [Facts]

def fn {F : FTy → Type} [FloatOps F] (main_arg0 : FVec F S8192x1024 .f32) (main_arg1 : FVec F S4096x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S4096x1024 .f32 := Host.absf main_arg1
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : IVec S_ 1 := andi main_v3 main_v7
  main_v8
-- ==== Kernel.lean ====
abbrev S8192x1024 : Shape := ⟨2, ![8192, 1024]⟩
abbrev S4096x1024 : Shape := ⟨2, ![4096, 1024]⟩
abbrev S8192x4096 : Shape := ⟨2, ![8192, 4096]⟩
abbrev S1024x1024 : Shape := ⟨2, ![1024, 1024]⟩
abbrev S1024x2048 : Shape := ⟨2, ![1024, 2048]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S4096x1024, .f32⟩
  | .hbm, ⟨2, _⟩ => ⟨S8192x4096, .f32⟩
  | .local _ .vmem, ⟨0, _⟩ => ⟨S1024x1024, .f32⟩
  | .local _ .vmem, ⟨1, _⟩ => ⟨S1024x1024, .f32⟩
  | .local _ .vmem, ⟨2, _⟩ => ⟨S4096x1024, .f32⟩
  | .local _ .vmem, ⟨3, _⟩ => ⟨S1024x2048, .f32⟩
  | .local _ .vmem, ⟨4, _⟩ => ⟨S1024x2048, .f32⟩
  | .local _ .vmem, ⟨5, _⟩ => ⟨S4096x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![8, 2], ![false, false]⟩

def k0_off1 (i : grid0.Coords) : Fin 2 → Nat :=
  let arg1 : BitVec 32 := BitVec.ofNat 32 (i 1).val
  let c2048_i32 : BitVec 32 := 2048#32
  let v7 : BitVec 32 := Scalar.muli arg1 c2048_i32
  let v8 : Index := Scalar.indexCast v7
  let c0_3 : Index := 0#32
  ![v8.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S4096x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  inb_S4096x1024_S4096x1024_0_0 : ∀ a, (![0, 0] : Fin 2 → Nat) a + S4096x1024.size a ≤ S4096x1024.size a
  h_S4096x1024 : 0 < S4096x1024.numel
  bitsLt_bf16_f32 : FTy.bits .bf16 < FTy.bits .f32
  shapeCasts_S4096x1024_S4096x1024 : S4096x1024.ShapeCasts S4096x1024
  packedbf16_S4096x1024_S4096x1024_0_0 : (Rect.unit (s := S4096x1024) ![0, 0] S4096x1024.size inb_S4096x1024_S4096x1024_0_0).PackedRows (EltTy.packing .bf16)
  inb_S1024x1024_S1024x1024_0_0 : ∀ a, (![0, 0] : Fin 2 → Nat) a + S1024x1024.size a ≤ S1024x1024.size a
  h_S1024x1024 : 0 < S1024x1024.numel
  h_S2048x1024 : 0 < S2048x1024.numel
  inb_S1024x2048_S1024x2048_0_0 : ∀ a, (![0, 0] : Fin 2 → Nat) a + S1024x2048.size a ≤ S1024x2048.size a
  h_S1024x2048 : 0 < S1024x2048.numel
  dot_S1024x1024_S2048x1024_S1024x2048_1_1_0_0_n_n_wf : DotDims.WF S1024x1024 S2048x1024 S1024x2048 [1] [1] [0] [0] [] []
  hrank0 : 0 < grid0.rank
  k0_off1_inb : ∀ i : grid0.Coords, ∀ a, (k0_off1 i) a + S2048x1024.size a ≤ S4096x1024.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x1024.size a
  hwx0_0 : ∀ i : grid0.Coords, EltTy.bits .f32 = 32 ∨ (Rect.block (s := S8192x1024) S1024x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4096x1024.size a ≤ S4096x1024.size a
  hwx0_1 : ∀ i : grid0.Coords, EltTy.bits .f32 = 32 ∨ (Rect.block (s := S4096x1024) S4096x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x2048.size a ≤ S8192x4096.size a
  hwx0_2 : ∀ i : grid0.Coords, EltTy.bits .f32 = 32 ∨ (Rect.block (s := S8192x4096) S1024x2048.size (cc0_transform_2 i) (hinb0_2 i)).WholeWords (EltTy.packing .f32)

variable [Facts₀]

def dot_S1024x1024_S2048x1024_S1024x2048_1_1_0_0_n_n : DotDims S1024x1024 S2048x1024 S1024x2048 where
  lhsContracting := [1]
  rhsContracting := [1]
  lhsNonContracting := [0]
  rhsNonContracting := [0]
  lhsBatch := []
  rhsBatch := []
  wf := dot_S1024x1024_S2048x1024_S1024x2048_1_1_0_0_n_n_wf

abbrev win0_0 : Pipeline.Window sig grid0 :=
  Pipeline.Window.ofSpec (Memref.whole main_arg0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4096x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1024x2048.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8192x1024 : Shape := ⟨2, ![8192, 1024]⟩
abbrev S4096x1024 : Shape := ⟨2, ![4096, 1024]⟩
abbrev S4096 : Shape := ⟨1, ![4096]⟩
abbrev S_ : Shape := ⟨0, ![]⟩
abbrev S4096x1 : Shape := ⟨2, ![4096, 1]⟩
abbrev S1 : Shape := ⟨1, ![1]⟩
abbrev S1x1 : Shape := ⟨2, ![1, 1]⟩
abbrev S8192x4096 : Shape := ⟨2, ![8192, 4096]⟩

abbrev nBuf : Space → Nat
  | .hbm => 27
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S4096x1024, .f32⟩
  | .hbm, ⟨2, _⟩ => ⟨S4096, .i32⟩
  | .hbm, ⟨3, _⟩ => ⟨S_, .i32⟩
  | .hbm, ⟨4, _⟩ => ⟨S4096, .i32⟩
  | .hbm, ⟨5, _⟩ => ⟨S4096, .i1⟩
  | .hbm, ⟨6, _⟩ => ⟨S_, .i32⟩
  | .hbm, ⟨7, _⟩ => ⟨S4096, .i32⟩
  | .hbm, ⟨8, _⟩ => ⟨S4096, .i32⟩
  | .hbm, ⟨9, _⟩ => ⟨S4096, .i32⟩
  | .hbm, ⟨10, _⟩ => ⟨S4096x1, .i32⟩
  | .hbm, ⟨11, _⟩ => ⟨S1, .i32⟩
  | .hbm, ⟨12, _⟩ => ⟨S_, .i32⟩
  | .hbm, ⟨13, _⟩ => ⟨S4096x1, .i32⟩
  | .hbm, ⟨14, _⟩ => ⟨S4096x1, .i1⟩
  | .hbm, ⟨15, _⟩ => ⟨S1x1, .i32⟩
  | .hbm, ⟨16, _⟩ => ⟨S4096x1, .i32⟩
  | .hbm, ⟨17, _⟩ => ⟨S4096x1, .i1⟩
  | .hbm, ⟨18, _⟩ => ⟨S4096x1, .i1⟩
  | .hbm, ⟨19, _⟩ => ⟨S_, .i1⟩
  | .hbm, ⟨20, _⟩ => ⟨S4096, .i1⟩
  | .hbm, ⟨21, _⟩ => ⟨S4096x1024, .f32⟩
  | .hbm, ⟨22, _⟩ => ⟨S4096x1024, .i1⟩
  | .hbm, ⟨23, _⟩ => ⟨S_, .f32⟩
  | .hbm, ⟨24, _⟩ => ⟨S4096x1024, .f32⟩
  | .hbm, ⟨25, _⟩ => ⟨S4096x1024, .f32⟩
  | .hbm, ⟨26, _⟩ => ⟨S8192x4096, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_c : Ref sig .tc := ⟨.hbm, 3, rfl⟩
abbrev main_call0_v0 : Ref sig .tc := ⟨.hbm, 4, rfl⟩
abbrev main_call0_v1 : Ref sig .tc := ⟨.hbm, 5, rfl⟩
abbrev main_call0_c_0 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_c_1 : Ref sig .tc := ⟨.hbm, 11, rfl⟩
abbrev main_call0_c_2 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_c_3 : Ref sig .tc := ⟨.hbm, 19, rfl⟩
abbrev main_call0_v12 : Ref sig .tc := ⟨.hbm, 20, rfl⟩
abbrev main_call0_v13 : Ref sig .tc := ⟨.hbm, 21, rfl⟩
abbrev main_call0_v14 : Ref sig .tc := ⟨.hbm, 22, rfl⟩
abbrev main_call0_cst : Ref sig .tc := ⟨.hbm, 23, rfl⟩
abbrev main_call0_v15 : Ref sig .tc := ⟨.hbm, 24, rfl⟩
abbrev main_v1 : Ref sig .tc := ⟨.hbm, 25, rfl⟩
abbrev main_v2 : Ref sig .tc := ⟨.hbm, 26, rfl⟩

abbrev nD : Nat := 1
abbrev τ : Topo := Topo.v7x

variable {F : FTy → Type} [FloatOps F]

class Facts₀ : Prop where
  bcast_S_S4096 : S_.BroadcastsInDim S4096 (![] : Fin 0 → Fin S4096.rank)
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S1_S1x1_1 : S1.BroadcastsInDim S1x1 (![1] : Fin 1 → Fin S1x1.rank)
  bcast_S1x1_S4096x1_0_1 : S1x1.BroadcastsInDim S4096x1 (![0, 1] : Fin 2 → Fin S4096x1.rank)
  reducesTo_S4096x1_S4096_d1 : S4096x1.ReducesTo [1] S4096
  h_S_ : 0 < S_.numel
  bcast_S4096_S4096x1024_0 : S4096.BroadcastsInDim S4096x1024 (![0] : Fin 1 → Fin S4096x1024.rank)
  bcast_S_S4096x1024 : S_.BroadcastsInDim S4096x1024 (![] : Fin 0 → Fin S4096x1024.rank)
  gather_S4096x1024_S4096x1_S4096x1024_1_0_n_n_0_1_11024_wf : GatherDims.WF S4096x1024 S4096x1 S4096x1024 [1] [0] [] [0] [] 1 ![1, 1024]
  dot_S8192x1024_S4096x1024_S8192x4096_1_1_0_0_n_n_wf : DotDims.WF S8192x1024 S4096x1024 S8192x4096 [1] [1] [0] [0] [] []

variable [Facts₀]

def gather_S4096x1024_S4096x1_S4096x1024_1_0_n_n_0_1_11024 : GatherDims S4096x1024 S4096x1 S4096x1024 where
  offsetDims := [1]
  collapsedSliceDims := [0]
  operandBatchingDims := []
  startIndicesBatchingDims := []
  startIndexMap := [0]
  indexVectorDim := 1
  sliceSizes := ![1, 1024]
  wf := gather_S4096x1024_S4096x1_S4096x1024_1_0_n_n_0_1_11024_wf
def dot_S8192x1024_S4096x1024_S8192x4096_1_1_0_0_n_n : DotDims S8192x1024 S4096x1024 S8192x4096 where
  lhsContracting := [1]
  rhsContracting := [1]
  lhsNonContracting := [0]
  rhsNonContracting := [0]
  lhsBatch := []
  rhsBatch := []
  wf := dot_S8192x1024_S4096x1024_S8192x4096_1_1_0_0_n_n_wf

class Facts : Prop extends Facts₀ where

variable [Facts]
-- ==== Proof.KernelPieces.lean ====
/-
  What one grid point of the kernel leaves behind, as values.

  The kernel keeps the whole weight table in a scratch buffer.  At the first grid point it converts the table to
  the matrix unit's format and stores it there; at every point it loads its 1024 rows of the embeddings, loads
  2048 rows of the cached table (the upper or the lower half, by the point's second coordinate), multiplies the
  first by the transpose of the second into a zero accumulator, and stores the product as its output block.

  Read back, that says: the first point leaves the converted table in the scratch, and its output block is the
  product with the rows just stored; every other point leaves the scratch as it found it, and its output block
  is the product with the rows of what it found.
-/
import proofs.«139592_g68109591380859_cont_9to1c4b_295_13_alg».proof.Proof.Gen.KernelIdeal.Frame
import Idealize.ShloMosaic.Lib.Pipeline.Value
import Idealize.ShloMosaic.Lib.Tactic

noncomputable section

namespace Cert.KernelIdeal.Pieces

open Cert.KernelIdeal Cert.KernelIdeal.Gen
open Idealize.ShloMosaic Idealize.ShloMosaic.TcCoe Idealize.ShloMosaic.Tactic Idealize.SL.Sem

variable {F : FTy → Type} [FloatOps F]

theorem hz : (![0, 0] : Fin 2 → Nat) = fun _ => 0 := funext fun a => by fin_cases a <;> rfl

/-- The 2048 rows of the cached table that the point at grid coordinates `i` multiplies with: rows
    2048·i₁ … 2048·i₁ + 2047, all 1024 columns. -/
def slab (i : grid0.Coords) (X : Vec F S4096x1024 .bf16) : Vec F S2048x1024 .bf16 :=
  View.ld X (Rect.unit (s := S4096x1024) (k0_off1 i) S2048x1024.size (Facts₀.k0_off1_inb i))

/-- The first point leaves the converted table in the scratch. -/
theorem scratch_A (c : Dev nD) (i : grid0.Coords) (arg2 : Memref sig .tc .vmem S1024x1024 .f32) (harg2 : arg2.IsWhole) (arg3 : Memref sig .tc .vmem S4096x1024 .f32) (harg3 : arg3.IsWhole) (arg4 : Memref sig .tc .vmem S1024x2048 .f32) (harg4 : arg4.IsWhole) (arg5 : Memref sig .tc .vmem S4096x1024 .bf16) (harg5 : arg5.IsWhole) (hc0 : cond0_0 i)
    (x0 : Vec F S1024x1024 .f32) (x1 : Vec F S4096x1024 .f32) :
    sout0_A_0 c i arg2 harg2 arg3 harg3 arg4 harg4 arg5 harg5 hc0 x0 x1 = k0_pay1 x1 := by
  unfold sout0_A_0
  rw [View.read_writes_junk_eq_canon]
  unfold kernelRun0_A
  dsimp only
  sl_unfold_words
  rw [View.canon_unit_zero hz]
  simp only [View.readAt_eq_ld, harg3.read_unread, View.ld_unit_zero (S := S4096x1024) hz]

/-- The first point's output block: the embeddings block times the transposed rows of the table it has just
    converted and stored. -/
theorem out_A (c : Dev nD) (i : grid0.Coords) (arg2 : Memref sig .tc .vmem S1024x1024 .f32) (harg2 : arg2.IsWhole) (arg3 : Memref sig .tc .vmem S4096x1024 .f32) (harg3 : arg3.IsWhole) (arg4 : Memref sig .tc .vmem S1024x2048 .f32) (harg4 : arg4.IsWhole) (arg5 : Memref sig .tc .vmem S4096x1024 .bf16) (harg5 : arg5.IsWhole) (hc0 : cond0_0 i)
    (x0 : Vec F S1024x1024 .f32) (x1 : Vec F S4096x1024 .f32) :
    out0_A_2 c i arg2 harg2 arg3 harg3 arg4 harg4 arg5 harg5 hc0 x0 x1 = k0_pay2 x0 (slab i (k0_pay1 x1)) := by
  unfold out0_A_2
  rw [View.read_writes_junk_eq_canon]
  unfold kernelRun0_A
  dsimp only
  sl_unfold_words
  rw [View.canon_unit_zero hz]
  simp only [View.readAt_eq_ld, harg2.read_unread, harg3.read_unread, View.read_writes_junk_eq_canon,
    View.canon_unit_zero (S := S4096x1024) hz, View.ld_unit_zero (S := S1024x1024) hz, View.ld_unit_zero (S := S4096x1024) hz]
  rfl

/-- Any later point's output block: the embeddings block times the transposed rows of what the scratch held
    when the point began. -/
theorem out_B (c : Dev nD) (i : grid0.Coords) (arg2 : Memref sig .tc .vmem S1024x1024 .f32) (harg2 : arg2.IsWhole) (arg3 : Memref sig .tc .vmem S4096x1024 .f32) (harg3 : arg3.IsWhole) (arg4 : Memref sig .tc .vmem S1024x2048 .f32) (harg4 : arg4.IsWhole) (arg5 : Memref sig .tc .vmem S4096x1024 .bf16) (harg5 : arg5.IsWhole) (hc0 : ¬cond0_0 i)
    (x0 : Vec F S1024x1024 .f32) (x1 : Vec F S4096x1024 .f32) (xs0 : Vec F S4096x1024 .bf16) :
    out0_B_2 c i arg2 harg2 arg3 harg3 arg4 harg4 arg5 harg5 hc0 x0 x1 xs0 = k0_pay2 x0 (slab i xs0) := by
  unfold out0_B_2
  rw [View.read_writes_junk_eq_canon]
  unfold kernelRun0_B
  dsimp only
  rw [View.canon_unit_zero hz]
  simp only [View.readAt_eq_ld, harg2.read_unread, harg5.read_unread, View.ld_unit_zero (S := S1024x1024) hz]
  rfl

/-! The same three facts with the staged table, or the scratch's contents, named by an equation: at a grid point the
    block the body was handed is known to BE some array, and these forms take that knowledge as a hypothesis. -/

theorem scratch_A_of (c : Dev nD) (i : grid0.Coords) (arg2 : Memref sig .tc .vmem S1024x1024 .f32) (harg2 : arg2.IsWhole) (arg3 : Memref sig .tc .vmem S4096x1024 .f32) (harg3 : arg3.IsWhole) (arg4 : Memref sig .tc .vmem S1024x2048 .f32) (harg4 : arg4.IsWhole) (arg5 : Memref sig .tc .vmem S4096x1024 .bf16) (harg5 : arg5.IsWhole) (hc0 : cond0_0 i)
    (x0 : Vec F S1024x1024 .f32) (x1 X : Vec F S4096x1024 .f32) (hX : x1 = X) :
    sout0_A_0 c i arg2 harg2 arg3 harg3 arg4 harg4 arg5 harg5 hc0 x0 x1 = k0_pay1 X := by
  subst hX
  exact scratch_A c i arg2 harg2 arg3 harg3 arg4 harg4 arg5 harg5 hc0 x0 x1

theorem out_A_of (c : Dev nD) (i : grid0.Coords) (arg2 : Memref sig .tc .vmem S1024x1024 .f32) (harg2 : arg2.IsWhole) (arg3 : Memref sig .tc .vmem S4096x1024 .f32) (harg3 : arg3.IsWhole) (arg4 : Memref sig .tc .vmem S1024x2048 .f32) (harg4 : arg4.IsWhole) (arg5 : Memref sig .tc .vmem S4096x1024 .bf16) (harg5 : arg5.IsWhole) (hc0 : cond0_0 i)
    (x0 : Vec F S1024x1024 .f32) (x1 X : Vec F S4096x1024 .f32) (hX : x1 = X) :
    out0_A_2 c i arg2 harg2 arg3 harg3 arg4 harg4 arg5 harg5 hc0 x0 x1 = k0_pay2 x0 (slab i (k0_pay1 X)) := by
  subst hX
  exact out_A c i arg2 harg2 arg3 harg3 arg4 harg4 arg5 harg5 hc0 x0 x1

theorem out_B_of (c : Dev nD) (i : grid0.Coords) (arg2 : Memref sig .tc .vmem S1024x1024 .f32) (harg2 : arg2.IsWhole) (arg3 : Memref sig .tc .vmem S4096x1024 .f32) (harg3 : arg3.IsWhole) (arg4 : Memref sig .tc .vmem S1024x2048 .f32) (harg4 : arg4.IsWhole) (arg5 : Memref sig .tc .vmem S4096x1024 .bf16) (harg5 : arg5.IsWhole) (hc0 : ¬cond0_0 i)
    (x0 : Vec F S1024x1024 .f32) (x1 : Vec F S4096x1024 .f32) (xs0 X : Vec F S4096x1024 .bf16) (hX : xs0 = X) :
    out0_B_2 c i arg2 harg2 arg3 harg3 arg4 harg4 arg5 harg5 hc0 x0 x1 xs0 = k0_pay2 x0 (slab i X) := by
  subst hX
  exact out_B c i arg2 harg2 arg3 harg3 arg4 harg4 arg5 harg5 hc0 x0 x1 xs0

end Cert.KernelIdeal.Pieces

end
-- ==== Proof.LibDenseRows.lean ====
import Idealize.ShloMosaic.PureOps.Ideal
import Idealize.ShloMosaic.PureOps.Ideal.Laws
import Idealize.ShloMosaic.Lib.ValueIdx

/-!
# A matrix times a transposed matrix, row by row, over the extended reals

`dense X W` is the product `X · Wᵀ` of an `M × K` array with an `N × K` array: entry `(a, n)` is
`∑ k, X (a, k) * W (n, k)`. `relu` is the entrywise maximum with zero. Both act on each row of `X`
by itself: two arrays (of any numbers of rows) that agree on one row of each give results that
agree on that row (`dense_row`, `relu_row`). No law of the extended reals beyond reading a sum term
by term is used, so nothing here asks the entries to be finite.

The matrix unit's product into a zero accumulator and the host's `dot_general`, both contracting the
last axis of each operand (the dimension numbers `DotDims.transposedRhs`), are `dense` of their
operands at the ideal values (`matmul_zero_eq_dense`, `dotGeneral_eq_dense`); the entrywise maximum
with a splat of a zero pattern is `relu` (`maximumf_zero_eq_relu`).
-/

noncomputable section

namespace Cert.DenseRows

open Idealize.ShloMosaic Idealize.ShloMosaic.ValueIdx

/-- `X · Wᵀ`: entry `(a, n)` is the sum over `k` of `X (a, k) * W (n, k)`. -/
def dense {M K N : ℕ} (X : (⟨2, ![M, K]⟩ : Shape).Idx → EReal) (W : (⟨2, ![N, K]⟩ : Shape).Idx → EReal) :
    (⟨2, ![M, N]⟩ : Shape).Idx → EReal :=
  fun j => ∑ k : Fin K, X (ix2 (j 0) k) * W (ix2 (j 1) k)

/-- The entrywise maximum with zero. -/
def relu {s : Shape} (X : s.Idx → EReal) : s.Idx → EReal := fun j => max (X j) 0

theorem dense_apply {M K N : ℕ} (X : (⟨2, ![M, K]⟩ : Shape).Idx → EReal) (W : (⟨2, ![N, K]⟩ : Shape).Idx → EReal)
    (a : Fin M) (n : Fin N) : dense X W (ix2 a n) = ∑ k : Fin K, X (ix2 a k) * W (ix2 n k) := rfl

theorem relu_apply {s : Shape} (X : s.Idx → EReal) (j : s.Idx) : relu X j = max (X j) 0 := rfl

/-- Row `a` of `X · Wᵀ` is a function of row `a` of `X` alone. -/
theorem dense_row {M M' K N : ℕ} (X : (⟨2, ![M, K]⟩ : Shape).Idx → EReal) (X' : (⟨2, ![M', K]⟩ : Shape).Idx → EReal)
    (W : (⟨2, ![N, K]⟩ : Shape).Idx → EReal) (a : Fin M) (a' : Fin M')
    (h : ∀ k : Fin K, X (ix2 a k) = X' (ix2 a' k)) (n : Fin N) :
    dense X W (ix2 a n) = dense X' W (ix2 a' n) := by
  rw [dense_apply, dense_apply]
  exact Finset.sum_congr rfl fun k _ => by rw [h k]

/-- So is row `a` of the entrywise maximum with zero. -/
theorem relu_row {M M' K : ℕ} (X : (⟨2, ![M, K]⟩ : Shape).Idx → EReal) (X' : (⟨2, ![M', K]⟩ : Shape).Idx → EReal)
    (a : Fin M) (a' : Fin M') (h : ∀ k : Fin K, X (ix2 a k) = X' (ix2 a' k)) (k : Fin K) :
    relu X (ix2 a k) = relu X' (ix2 a' k) := by
  rw [relu_apply, relu_apply, h k]

/-! ## The contraction of the last axis of both operands, as a sum over that axis's coordinate -/

/-- With the dimension numbers `transposedRhs` the left operand's row is the result's row … -/
theorem lhsIdx_transposedRhs_0 {M K N : ℕ} (j : (⟨2, ![M, N]⟩ : Shape).Idx) (q : (DotDims.transposedRhs M K N).contr.Idx) :
    ((DotDims.transposedRhs M K N).lhsIdx j q 0).val = (j 0).val := by
  unfold DotDims.lhsIdx
  rw [dif_neg (show ¬(0 : Fin 2) ∈ (DotDims.transposedRhs M K N).lhsBatch from List.not_mem_nil),
    dif_pos (show (0 : Fin 2) ∈ (DotDims.transposedRhs M K N).lhsNonContracting from List.mem_singleton.mpr rfl)]
  rfl

/-- … the right operand's row is the result's column … -/
theorem rhsIdx_transposedRhs_0 {M K N : ℕ} (j : (⟨2, ![M, N]⟩ : Shape).Idx) (q : (DotDims.transposedRhs M K N).contr.Idx) :
    ((DotDims.transposedRhs M K N).rhsIdx j q 0).val = (j 1).val := by
  unfold DotDims.rhsIdx
  rw [dif_neg (show ¬(0 : Fin 2) ∈ (DotDims.transposedRhs M K N).rhsBatch from List.not_mem_nil),
    dif_pos (show (0 : Fin 2) ∈ (DotDims.transposedRhs M K N).rhsNonContracting from List.mem_singleton.mpr rfl)]
  rfl

/-- … and both operands' columns are the contraction coordinate: the left operand is read at (row, `k`) … -/
theorem lhsIdx_transposedRhs {M K N : ℕ} (j : (⟨2, ![M, N]⟩ : Shape).Idx) (k : Fin K) :
    (DotDims.transposedRhs M K N).lhsIdx j ((contrEquiv1 (DotDims.transposedRhs M K N) K rfl rfl).symm k) = ix2 (j 0) k := by
  have hk := contrEquiv1_symm_val (DotDims.transposedRhs M K N) K rfl rfl k
  funext a
  refine Fin.ext ?_
  match a with
  | ⟨0, _⟩ => exact lhsIdx_transposedRhs_0 j _
  | ⟨1, _⟩ => exact ((DotDims.transposedRhs M K N).lhsIdx_val_of_single rfl j _).trans hk

/-- … and the right operand at (column, `k`). -/
theorem rhsIdx_transposedRhs {M K N : ℕ} (j : (⟨2, ![M, N]⟩ : Shape).Idx) (k : Fin K) :
    (DotDims.transposedRhs M K N).rhsIdx j ((contrEquiv1 (DotDims.transposedRhs M K N) K rfl rfl).symm k) = ix2 (j 1) k := by
  have hk := contrEquiv1_symm_val (DotDims.transposedRhs M K N) K rfl rfl k
  funext a
  refine Fin.ext ?_
  match a with
  | ⟨0, _⟩ => exact rhsIdx_transposedRhs_0 j _
  | ⟨1, _⟩ => exact ((DotDims.transposedRhs M K N).rhsIdx_val_of_single rfl j _).trans hk

/-- The textbook contraction with those dimension numbers is `dense`. -/
theorem contraction_transposedRhs {M K N : ℕ} (l : (⟨2, ![M, K]⟩ : Shape).Idx → EReal) (r : (⟨2, ![N, K]⟩ : Shape).Idx → EReal)
    (j : (⟨2, ![M, N]⟩ : Shape).Idx) :
    ∑ q : (DotDims.transposedRhs M K N).contr.Idx,
        l ((DotDims.transposedRhs M K N).lhsIdx j q) * r ((DotDims.transposedRhs M K N).rhsIdx j q) = dense l r j := by
  rw [← Equiv.sum_comp (contrEquiv1 (DotDims.transposedRhs M K N) K rfl rfl).symm]
  exact Finset.sum_congr rfl fun k _ => by rw [lhsIdx_transposedRhs, rhsIdx_transposedRhs]; rfl

/-- The matrix unit's product into the zero splat, contracting the last axis of both operands, is `dense`
    at the ideal values (whatever the operands' formats). `hd` is `rfl` for a printed record with those lists. -/
theorem matmul_zero_eq_dense {M K N : ℕ} {φ₁ φ₂ : FTy} (d : DotDims ⟨2, ![M, K]⟩ ⟨2, ![N, K]⟩ ⟨2, ![M, N]⟩)
    (hd : d = DotDims.transposedRhs M K N) (prec : Option ContractPrecision)
    (l : FVec Ideal ⟨2, ![M, K]⟩ φ₁) (r : FVec Ideal ⟨2, ![N, K]⟩ φ₂) :
    matmul d prec l r (constant (F := Ideal) ⟨2, ![M, N]⟩ .f32 0x00000000#32) = dense l r := by
  subst hd
  funext j
  exact (Ideal.matmul_constant_zero_apply _ prec l r j).trans (contraction_transposedRhs l r j)

/-- The host's `dot_general` with the same dimension numbers likewise. -/
theorem dotGeneral_eq_dense {M K N : ℕ} {φ₁ φ₂ : FTy} (d : DotDims ⟨2, ![M, K]⟩ ⟨2, ![N, K]⟩ ⟨2, ![M, N]⟩)
    (hd : d = DotDims.transposedRhs M K N) (prec : Option ContractPrecision)
    (l : FVec Ideal ⟨2, ![M, K]⟩ φ₁) (r : FVec Ideal ⟨2, ![N, K]⟩ φ₂) :
    Host.dotGeneral d prec l r = dense l r := by
  subst hd
  funext j
  exact (Ideal.dotGeneral_apply _ prec .single l r j).trans (contraction_transposedRhs l r j)

/-- The entrywise maximum with an array that is zero everywhere is `relu`. -/
theorem maximumf_zero_eq_relu {s : Shape} {φ : FTy} (x z : FVec Ideal s φ) (hz : ∀ j, z j = 0) :
    maximumf x z = relu x := by
  funext j
  show max (x j) (z j) = max (x j) 0
  rw [hz j]

end Cert.DenseRows

end
-- ==== Proof.KernelPayload.lean ====
/-
  The kernel's two payloads at the ideal values.

  Over the extended reals a change of float format is the identity, so the table the first grid point stores in
  the scratch is the table itself, and the product the matrix unit forms — the embeddings block, in the matrix
  unit's format, against the transposed rows it loaded, into a zero accumulator — is the plain row-by-row product:
  entry (p, q) is the sum over k of block(p, k) · rows(q, k).
-/
import proofs.«139592_g68109591380859_cont_9to1c4b_295_13_alg».proof.Proof.Gen.KernelIdeal.Skeleton
import proofs.«139592_g68109591380859_cont_9to1c4b_295_13_alg».proof.Proof.LibDenseRows
import Idealize.ShloMosaic.Lib.ValueIdx
import Idealize.ShloMosaic.Lib.Pipeline.Value

noncomputable section

namespace Cert.KernelIdeal.Payload

open Cert.KernelIdeal Cert.KernelIdeal.Gen Cert.DenseRows
open Idealize.ShloMosaic Idealize.ShloMosaic.ValueIdx

/-- The converted table is the table. -/
theorem pay1_eq (x : Vec Ideal S4096x1024 .f32) : k0_pay1 (F := Ideal) x = x := by
  unfold k0_pay1
  dsimp only
  rw [shapeCast_self]
  rfl

/-- The point's product is the row-by-row product of the block with the rows. -/
theorem pay2_eq (x0 : Vec Ideal S1024x1024 .f32) (x9 : Vec Ideal S2048x1024 .bf16) :
    k0_pay2 (F := Ideal) x0 x9 = dense (M := 1024) (K := 1024) (N := 2048) x0 x9 := by
  unfold k0_pay2
  dsimp only
  refine (matmul_zero_eq_dense dot_S1024x1024_S2048x1024_S1024x2048_1_1_0_0_n_n rfl none
    (truncf .bf16 x0 Facts₀.bitsLt_bf16_f32) x9).trans ?_
  rfl

/-- One entry of a point's product, when row p of the block is row P of the embeddings and row q of the loaded
    rows is row Q of the table: it is entry (P, Q) of the whole product. -/
theorem pay2_entry (A : S8192x1024.Idx → EReal) (W : S4096x1024.Idx → EReal)
    (x0 : Vec Ideal S1024x1024 .f32) (x9 : Vec Ideal S2048x1024 .bf16)
    (p : Fin 1024) (q : Fin 2048) (P : Fin 8192) (Q : Fin 4096)
    (hx0 : ∀ k : Fin 1024, x0 (ix2 p k) = A (ix2 P k)) (hx9 : ∀ k : Fin 1024, x9 (ix2 q k) = W (ix2 Q k)) :
    k0_pay2 (F := Ideal) x0 x9 (ix2 p q) = dense (M := 8192) (K := 1024) (N := 4096) A W (ix2 P Q) := by
  rw [pay2_eq, dense_apply, dense_apply]
  exact Finset.sum_congr rfl fun k _ => by rw [hx0 k, hx9 k]

end Cert.KernelIdeal.Payload

end
-- ==== Proof.KernelValue.lean ====
/-
  The kernel's result array is the embeddings times the transposed weight table.

  The grid has 8 × 2 points; point (i, j) writes the output block of rows 1024·i … 1024·i + 1023 and columns
  2048·j … 2048·j + 2047.  Its embeddings block is rows 1024·i … of the embeddings; every point is staged the
  whole table.  The scratch holds the table after the first point and is never written again, so it holds the
  table after every point; the rows a point loads from it are rows 2048·j … of the table.  So entry (p, q) of
  point (i, j)'s block is the sum over k of embed(1024·i + p, k) · weight(2048·j + q, k): the block is a block of
  the one whole product.  The sixteen blocks tile the result array, so the array ends as that product.
-/
import proofs.«139592_g68109591380859_cont_9to1c4b_295_13_alg».proof.Proof.Gen.KernelIdeal.Value
import proofs.«139592_g68109591380859_cont_9to1c4b_295_13_alg».proof.Proof.KernelPieces
import proofs.«139592_g68109591380859_cont_9to1c4b_295_13_alg».proof.Proof.KernelPayload

noncomputable section

namespace Cert.KernelIdeal.Readout

open Cert.KernelIdeal Cert.KernelIdeal.Gen Cert.KernelIdeal.Value Cert.KernelIdeal.Pieces Cert.KernelIdeal.Payload Cert.DenseRows
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- Where each point's blocks sit, decided over the sixteen points: the embeddings block moves with the output's
    row block and spans all columns; the table is staged whole; the rows loaded from the scratch start at 2048
    times the output's column block; and the output's block indices stay in range. -/
theorem where_blocks : ∀ t : Fin cfg0.N,
    win0_0.index t (0 : Fin 2) = win0_2.index t (0 : Fin 2) ∧ win0_0.index t (1 : Fin 2) = 0
    ∧ win0_1.index t (0 : Fin 2) = 0 ∧ win0_1.index t (1 : Fin 2) = 0
    ∧ k0_off1 (grid0.coords t) (0 : Fin 2) = win0_2.index t (1 : Fin 2) * 2048 ∧ k0_off1 (grid0.coords t) (1 : Fin 2) = 0
    ∧ win0_2.index t (0 : Fin 2) ≤ 7 ∧ win0_2.index t (1 : Fin 2) ≤ 1 :=
  (by decide +kernel : ∀ t : Fin grid0.N, _)

/-- Every one of the 8 × 2 output blocks is some point's. -/
theorem every_block : ∀ (q0 : Fin 8) (q1 : Fin 2), ∃ t : Fin cfg0.N, win0_2.index t = ![q0.val, q1.val] :=
  (by decide +kernel : ∀ (q0 : Fin 8) (q1 : Fin 2), ∃ t : Fin grid0.N, win0_2.index t = ![q0.val, q1.val])

/-- Every point is staged the whole table. -/
theorem table_block (c : Dev nD) (t : Fin cfg0.N) :
    (iblk m c 1 t : Vec Ideal S4096x1024 .f32) = V m c main_arg1 := by
  obtain ⟨-, -, e2, e3, -⟩ := where_blocks t
  funext y
  show V m c main_arg1 (((cfg0.win 1).blk t).view.emb y) = V m c main_arg1 y
  refine congrArg _ (funext fun a => Fin.ext ?_)
  match a with
  | ⟨0, _⟩ => show win0_1.index t (0 : Fin 2) * 4096 + 1 * (y 0).val = (y 0).val; omega
  | ⟨1, _⟩ => show win0_1.index t (1 : Fin 2) * 1024 + 1 * (y 1).val = (y 1).val; omega

/-- One step of the scratch's history: the first point stores the (converted) table; any other point leaves the
    scratch as the point before left it. -/
theorem scratch_step (c : Dev nD) (t : Fin cfg0.N)
    (ih : t.val ≠ 0 → (outsAt0 m c (t.val - 1) (Nat.lt_of_le_of_lt (Nat.sub_le _ _) t.isLt)).2 = k0_pay1 (V m c main_arg1)) :
    (outsAt0 m c t.val t.isLt).2 = k0_pay1 (V m c main_arg1) := by
  by_cases h0 : t.val % 16 = 0
  · rw [outsAt0_A m c t h0]
    dsimp only
    exact scratch_A_of c (grid0.coords t) (ms0_0 t) (hs0_0 t) (ms0_1 t) (hs0_1 t) (ms0_2 t) (hs0_2 t) scM0_0 (Memref.isWhole_whole _)
      ((hcond0_0 t).mpr h0) (iblk m c 0 t) (iblk m c 1 t) (V m c main_arg1) (table_block m c t)
  · rw [outsAt0_B m c t h0]
    dsimp only
    unfold sout0_B_0
    exact ih (fun hz => h0 (by rw [hz]))

/-- After every point the scratch holds the (converted) table. -/
theorem scratch_eq (c : Dev nD) : ∀ (n : ℕ) (h : n < cfg0.N), (outsAt0 m c n h).2 = k0_pay1 (V m c main_arg1)
  | 0, h => scratch_step m c ⟨0, h⟩ (fun hne => absurd rfl hne)
  | n + 1, h => scratch_step m c ⟨n + 1, h⟩ (fun _ => scratch_eq c n _)

/-- What point t leaves in its output block: its embeddings block times the transposed rows of the table. -/
theorem out_eq (c : Dev nD) (t : Fin cfg0.N) :
    (outsAt0 m c t.val t.isLt).1 = k0_pay2 (iblk m c 0 t) (slab (grid0.coords t) (k0_pay1 (V m c main_arg1))) := by
  by_cases h0 : t.val % 16 = 0
  · rw [outsAt0_A m c t h0]
    dsimp only
    exact out_A_of c (grid0.coords t) (ms0_0 t) (hs0_0 t) (ms0_1 t) (hs0_1 t) (ms0_2 t) (hs0_2 t) scM0_0 (Memref.isWhole_whole _)
      ((hcond0_0 t).mpr h0) (iblk m c 0 t) (iblk m c 1 t) (V m c main_arg1) (table_block m c t)
  · rw [outsAt0_B m c t h0]
    dsimp only
    exact out_B_of c (grid0.coords t) (ms0_0 t) (hs0_0 t) (ms0_1 t) (hs0_1 t) (ms0_2 t) (hs0_2 t) scM0_0 (Memref.isWhole_whole _)
      (fun h => h0 ((hcond0_0 t).mp h)) (iblk m c 0 t) (iblk m c 1 t)
      (outsAt0 m c (t.val - 1) (Nat.lt_of_le_of_lt (Nat.sub_le _ _) t.isLt)).2 (k0_pay1 (V m c main_arg1))
      (scratch_eq m c (t.val - 1) (Nat.lt_of_le_of_lt (Nat.sub_le _ _) t.isLt))

/-- WHAT POINT t WRITES BACK is block t of the whole product. -/
theorem flushed_eq (c : Dev nD) (t : Fin cfg0.N) :
    (dats m 0 c).flushed 2 t
      = ((cfg0.win 2).blk t).view.read (Elt Ideal) (dense (M := 8192) (K := 1024) (N := 4096) (V m c main_arg0) (V m c main_arg1)) := by
  rw [flushed2, out_eq]
  obtain ⟨e0, e1, e2, e3, e4, e5, b0, b1⟩ := where_blocks t
  funext j
  obtain ⟨p, q, rfl⟩ : ∃ (p : Fin 1024) (q : Fin 2048), j = ix2 p q := ⟨j 0, j 1, eq_ix2 j⟩
  show k0_pay2 (iblk m c 0 t) (slab (grid0.coords t) (k0_pay1 (V m c main_arg1))) (ix2 p q)
    = dense (M := 8192) (K := 1024) (N := 4096) (V m c main_arg0) (V m c main_arg1) (((cfg0.win 2).blk t).view.emb (ix2 p q))
  have hp := p.isLt
  have hq := q.isLt
  have hemb : ((cfg0.win 2).blk t).view.emb (ix2 p q)
      = ix2 (⟨win0_2.index t (0 : Fin 2) * 1024 + p.val, by omega⟩ : Fin 8192) (⟨win0_2.index t (1 : Fin 2) * 2048 + q.val, by omega⟩ : Fin 4096) := by
    funext a; apply Fin.ext
    match a with
    | ⟨0, _⟩ => show win0_2.index t (0 : Fin 2) * 1024 + 1 * p.val = win0_2.index t (0 : Fin 2) * 1024 + p.val; omega
    | ⟨1, _⟩ => show win0_2.index t (1 : Fin 2) * 2048 + 1 * q.val = win0_2.index t (1 : Fin 2) * 2048 + q.val; omega
  rw [hemb]
  refine pay2_entry (V m c main_arg0) (V m c main_arg1) (iblk m c 0 t) (slab (grid0.coords t) (k0_pay1 (V m c main_arg1))) p q _ _
    (fun k => ?_) (fun k => ?_)
  · show V m c main_arg0 (((cfg0.win 0).blk t).view.emb (ix2 p k)) = V m c main_arg0 (ix2 _ k)
    refine congrArg _ (funext fun a => Fin.ext ?_)
    have hk := k.isLt
    match a with
    | ⟨0, _⟩ => show win0_0.index t (0 : Fin 2) * 1024 + 1 * p.val = win0_2.index t (0 : Fin 2) * 1024 + p.val; omega
    | ⟨1, _⟩ => show win0_0.index t (1 : Fin 2) * 1024 + 1 * k.val = k.val; omega
  · rw [pay1_eq]
    show V m c main_arg1 ((Rect.unit (s := S4096x1024) (k0_off1 (grid0.coords t)) S2048x1024.size (Facts₀.k0_off1_inb (grid0.coords t))).idx (ix2 q k))
      = V m c main_arg1 (ix2 _ k)
    refine congrArg _ (funext fun a => Fin.ext ?_)
    match a with
    | ⟨0, _⟩ => show k0_off1 (grid0.coords t) (0 : Fin 2) + 1 * q.val = win0_2.index t (1 : Fin 2) * 2048 + q.val; omega
    | ⟨1, _⟩ => show k0_off1 (grid0.coords t) (1 : Fin 2) + 1 * k.val = k.val; omega

/-- An index of the result array is in point t's block iff each coordinate is in the block's range. -/
theorem mem_blk (t : Fin cfg0.N) (i : S8192x4096.Idx) :
    i ∈ ((cfg0.win 2).blk t).view.set ↔ ∀ a : Fin 2, win0_2.index t a * S1024x2048.size a ≤ (i a).val ∧ (i a).val < win0_2.index t a * S1024x2048.size a + S1024x2048.size a := by
  show i ∈ ((View.whole main_v0).slice (win0_2.rect t)).set ↔ _
  rw [View.set_slice_whole, Rect.mem_set_unit]
  exact Iff.rfl

/-- The sixteen blocks cover the result array: entry (r, s) is in the block of row block r / 1024 and column
    block s / 2048. -/
theorem covered (i : S8192x4096.Idx) :
    ∃ t : Fin cfg0.N, (cfg0.win 2).flush t = true ∧ i ∈ ((cfg0.win 2).blk t).view.set := by
  have hi0 : (i 0).val < 8192 := (i 0).isLt
  have hi1 : (i 1).val < 4096 := (i 1).isLt
  obtain ⟨t, ht⟩ := every_block ⟨(i 0).val / 1024, by omega⟩ ⟨(i 1).val / 2048, by omega⟩
  have q0 : win0_2.index t (0 : Fin 2) = (i 0).val / 1024 := congrFun ht 0
  have q1 : win0_2.index t (1 : Fin 2) = (i 1).val / 2048 := congrFun ht 1
  refine ⟨t, flush0_2 t, ?_⟩
  rw [mem_blk]
  intro a
  match a with
  | ⟨0, _⟩ => show win0_2.index t (0 : Fin 2) * 1024 ≤ (i 0).val ∧ (i 0).val < win0_2.index t (0 : Fin 2) * 1024 + 1024; omega
  | ⟨1, _⟩ => show win0_2.index t (1 : Fin 2) * 2048 ≤ (i 1).val ∧ (i 1).val < win0_2.index t (1 : Fin 2) * 2048 + 2048; omega

/-- THE RESULT ARRAY after the run is the whole product of the argument arrays. -/
theorem final (c : Dev nD) :
    (dats m 0 c).arrAt 2 cfg0.N
      = dense (M := 8192) (K := 1024) (N := 4096) (m ((c : Thread nD τ).loc main_arg0)) (m ((c : Thread nD τ).loc main_arg1)) :=
  (dats m 0 c).arrAt_eq_of_cover 2 (dense (M := 8192) (K := 1024) (N := 4096) (V m c main_arg0) (V m c main_arg1))
    (fun t _ => flushed_eq m c t) covered

/-- The kernel's run, read: the result array at the whole product, the arguments unchanged. -/
theorem run : θ_run defs (onTc (τ := τ) (main (F := Ideal))) ⟨m, fun _ => 0, ρ⟩ fun r => ∀ c : Dev nD,
      r.2.mem ((c : Thread nD τ).loc main_v0)
        = dense (M := 8192) (K := 1024) (N := 4096) (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (run_blocks m ρ)

end Cert.KernelIdeal.Readout

end
-- ==== Proof.LibTypedRef.lean ====
/-
  Typed references to host buffers.

  A called function's operations address their buffers through typed references: a value of the tensor's type is moved
  to the buffer's own type to be stored, and back when it is read. The buffer's type IS the tensor's type, so moving
  a value there and back leaves it unchanged. With this, the contents after a called function's operations read as the
  plain composition of the operations' functions.
-/
import Idealize.ShloMosaic.Lib.StableHlo

noncomputable section

namespace Cert.LibTypedRef

open Idealize.ShloMosaic Idealize.ShloMosaic.StableHlo

/-- Contents moved to a typed reference's buffer type and back are unchanged. -/
theorem ofBuf_toBuf {sig : RefSig} {T : BufTy} {Val : EltTy → Type} (x : TRef sig T) (v : T.Contents Val) :
    x.ofBuf (x.toBuf v) = v := by
  obtain ⟨r, rfl, _, _⟩ := x
  rfl

end Cert.LibTypedRef

end
-- ==== Proof.RefRun.lean ====
/-
  The reference program read as a straight line of host operations, and what it leaves in its result.

  The reference makes the list of row numbers 0, 1, …, 4095, takes those rows of the weight table (the
  take normalises a negative row number by adding 4096, marks which rows are in range, gathers, and puts a
  not-a-number in the rows that are out of range), and multiplies the embeddings by the transpose of what it
  took.  Here the two called functions are written out at their call sites, so that the program is one list of
  twenty-five operations; the result array is then the composition of the operations' functions applied to
  the two argument arrays, and the arguments are left as they were.
-/
import proofs.«139592_g68109591380859_cont_9to1c4b_295_13_alg».proof.Proof.Gen.ReferenceIdeal
import Idealize.ShloMosaic.Lib.StableHlo.Run
import proofs.«139592_g68109591380859_cont_9to1c4b_295_13_alg».proof.Proof.LibTypedRef

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The row numbers 0 … 4095 as 32-bit words. -/
def rowNumbers : IVec S4096 32 := iotaInDim S4096 32 0

/-- The row numbers after the take's normalisation (a negative one has 4096 added), as a column. -/
def rowColumn : IVec S4096x1 32 :=
  broadcastInDim S4096x1 ![0] bcast_S4096_S4096x1_0
    (select (cmpi .slt rowNumbers (broadcastInDim S4096 ![] bcast_S_S4096 (constantI S_ 32 0#32)))
      (addi rowNumbers (broadcastInDim S4096 ![] bcast_S_S4096 (constantI S_ 32 4096#32)))
      rowNumbers)

/-- For each row, whether its number lies in 0 … 4095. -/
def rowInRange : IVec S4096 1 :=
  Host.reduce IntOp.andi
    (andi (cmpi .sge rowColumn (broadcastInDim S4096x1 ![] bcast_S_S4096x1 (constantI S_ 32 0#32)))
      (cmpi .sle rowColumn (broadcastInDim S4096x1 ![0, 1] bcast_S1x1_S4096x1_0_1
        (broadcastInDim S1x1 ![1] bcast_S1_S1x1_1 (constantI S1 32 4095#32)))))
    (constantI S_ 1 1#1) reducesTo_S4096x1_S4096_d1 h_S_

/-- What the take returns for a table `w`: the gathered rows where the row number is in range, the
    not-a-number pattern elsewhere. -/
def taken (w : (⟨S4096x1024, .f32⟩ : BufTy).Contents (Elt F)) : (⟨S4096x1024, .f32⟩ : BufTy).Contents (Elt F) :=
  select (broadcastInDim S4096x1024 ![0] bcast_S4096_S4096x1024_0 rowInRange)
    (Host.gather gather_S4096x1024_S4096x1_S4096x1024_1_0_n_n_0_1_11024 w rowColumn)
    (broadcastInDim S4096x1024 ![] bcast_S_S4096x1024 (constant S_ .f32 0x7FC00000#32))

/-- The reference's result for embeddings `a` and table `w`. -/
def result (a : (⟨S8192x1024, .f32⟩ : BufTy).Contents (Elt F)) (w : (⟨S4096x1024, .f32⟩ : BufTy).Contents (Elt F)) :
    (⟨S8192x4096, .f32⟩ : BufTy).Contents (Elt F) :=
  Host.dotGeneral dot_S8192x1024_S4096x1024_S8192x4096_1_1_0_0_n_n none a (taken w)

/-- The program's twenty-five operations in order, the calls written out. -/
abbrev ops : List (HloOp τ sig (Elt F)) :=
  [ nullary main_v0 (iotaInDim S4096 32 0),
    TRef.nullary main_call0.c (constantI S_ 32 0#32),
    TRef.unary main_call0.c main_call0.v0 (broadcastInDim S4096 ![] bcast_S_S4096),
    TRef.binary (.of main_v0) main_call0.v0 main_call0.v1 (cmpi .slt),
    TRef.nullary main_call0.c_0 (constantI S_ 32 4096#32),
    TRef.unary main_call0.c_0 main_call0.v2 (broadcastInDim S4096 ![] bcast_S_S4096),
    TRef.binary (.of main_v0) main_call0.v2 main_call0.v3 addi,
    TRef.ternary main_call0.v1 main_call0.v3 (.of main_v0) main_call0.call0.v0 select,
    TRef.unary main_call0.call0.v0 main_call0.v5 (broadcastInDim S4096x1 ![0] bcast_S4096_S4096x1_0),
    TRef.nullary main_call0.c_1 (constantI S1 32 4095#32),
    TRef.nullary main_call0.c_2 (constantI S_ 32 0#32),
    TRef.unary main_call0.c_2 main_call0.v6 (broadcastInDim S4096x1 ![] bcast_S_S4096x1),
    TRef.binary main_call0.v5 main_call0.v6 main_call0.v7 (cmpi .sge),
    TRef.unary main_call0.c_1 main_call0.v8 (broadcastInDim S1x1 ![1] bcast_S1_S1x1_1),
    TRef.unary main_call0.v8 main_call0.v9 (broadcastInDim S4096x1 ![0, 1] bcast_S1x1_S4096x1_0_1),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S4096x1_S4096_d1 h_S_),
    TRef.binary (.of main_arg1) main_call0.v5 main_call0.v13 (fun x i => Host.gather gather_S4096x1024_S4096x1_S4096x1024_1_0_n_n_0_1_11024 x i),
    TRef.unary main_call0.v12 main_call0.v14 (broadcastInDim S4096x1024 ![0] bcast_S4096_S4096x1024_0),
    TRef.nullary main_call0.cst (constant S_ .f32 0x7FC00000#32),
    TRef.unary main_call0.cst main_call0.v15 (broadcastInDim S4096x1024 ![] bcast_S_S4096x1024),
    TRef.ternary main_call0.v14 main_call0.v13 main_call0.v15 main_call0.v16 select,
    binary main_arg0 main_v1 main_v2 ((fun l r => Host.dotGeneral dot_S8192x1024_S4096x1024_S8192x4096_1_1_0_0_n_n none l r) : (⟨S8192x1024, .f32⟩ : BufTy).Contents (Elt F) → (⟨S4096x1024, .f32⟩ : BufTy).Contents (Elt F) → (⟨S8192x4096, .f32⟩ : BufTy).Contents (Elt F)) ]

/-- The program is that straight line: the called functions unfolded at their calls, the sequencing
    re-associated. -/
theorem main_eq (c : Dev nD) : main (F := F) c = seq ops := by
  simp only [main, fn_take.body, fn_where.body, seq, bind_assoc, pure_bind]

/-- The result buffer after the operations, from any starting contents, is `result` of the two arguments'
    contents. -/
theorem out_eq (V : Valuation τ sig (Elt F)) :
    after ops V (main_v2 : DevRef τ sig) = result (V (main_arg0 : DevRef τ sig)) (V (main_arg1 : DevRef τ sig)) := by
  after_results_simp
  simp only [Cert.LibTypedRef.ofBuf_toBuf]
  rfl

theorem arg0_eq (V : Valuation τ sig (Elt F)) :
    after ops V (main_arg0 : DevRef τ sig) = V (main_arg0 : DevRef τ sig) := by
  after_results_simp

theorem arg1_eq (V : Valuation τ sig (Elt F)) :
    after ops V (main_arg1 : DevRef τ sig) = V (main_arg1 : DevRef τ sig) := by
  after_results_simp

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., nullary_bufs_sub .., unary_bufs_sub .., binary_bufs_sub .., nullary_bufs_sub .., unary_bufs_sub ..,
    binary_bufs_sub .., ternary_bufs_sub .., unary_bufs_sub .., nullary_bufs_sub .., nullary_bufs_sub .., unary_bufs_sub ..,
    binary_bufs_sub .., unary_bufs_sub .., unary_bufs_sub .., binary_bufs_sub .., binary_bufs_sub .., nullary_bufs_sub ..,
    binary_bufs_sub .., binary_bufs_sub .., unary_bufs_sub .., nullary_bufs_sub .., unary_bufs_sub .., ternary_bufs_sub ..,
    binary_bufs_sub ..⟩

/-- From any memory with zero counters every weakly fair execution of the reference terminates, with its result
    array at `result` of the two argument arrays and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v2)
        = result (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v2).trans (out_eq _),
      (h c main_arg0).trans (arg0_eq _),
      (h c main_arg1).trans (arg1_eq _)⟩)
    (run_seq scopedRefs_eq scopedSems_eq defs main (fun _ => ops) main_eq (fun _ => ops_sub) m ρ)

end Cert.ReferenceIdeal.RefRun

end
-- ==== Proof.LibRowScatter.lean ====
/-
  Two host operations on whole rows of a two-dimensional table, read at one entry.

  (1) Gathering rows. For a table of N rows and C columns and a list of E row numbers, the gathered array has E rows
      and C columns; its entry (e, q) is the table's entry (row named by e, q), where the row number is read as a
      signed integer and clamped into [0, N - 1].

  (2) Accumulating rows. For a base array of N rows and C columns, a list of E row numbers and E update rows of C
      columns, the accumulated array's entry (r, q) is the base entry plus the sum, over the positions e whose row
      number (read as a signed integer) is exactly r, of the update entry (e, q). A row number outside [0, N - 1]
      names no row and contributes nothing.
-/
import Idealize.ShloMosaic.PureOps.Ideal
import Idealize.ShloMosaic.Lib.ValueIdx

noncomputable section

open scoped BigOperators

namespace Cert.LibRowScatter
open Idealize.ShloMosaic Idealize.ShloMosaic.ValueIdx

/-- dimension numbers of x[rows]: offset_dims [1], collapsed_slice_dims [0], start_index_map [0], index_vector_dim 1, slice_sizes [1, C] -/
abbrev rowGatherDims (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- dimension numbers of the row scatter: update_window_dims [1], inserted_window_dims [0], scatter_dims_to_operand_dims [0], index_vector_dim 1 -/
abbrev rowScatterDims (N E C : Nat)
    (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- The table row that edge e's start index names: read as a signed integer and clamped into [0, N − 1]. -/
def rowAt {E w : Nat} (N : Nat) (hN : 0 < N) (idx : IVec ⟨2, ![E, 1]⟩ w) (e : Fin E) : Fin N :=
  ⟨min (idx (ix2 e (0 : Fin 1))).toInt.toNat (N - 1), by omega⟩

theorem gather_rows_apply {α : Type} {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (q : Fin C) :
    Host.gather (rowGatherDims N E C wf) x idx (ix2 e q) = x (ix2 (rowAt N hN idx e) q) := by
  unfold Host.gather
  congr 1
  funext a
  refine Fin.ext ?_
  match a with
  | ⟨0, _⟩ =>
    show (rowGatherDims N E C wf).start (ix2 e q) idx 0 + (rowGatherDims N E C wf).batchCoord (ix2 e q) 0
      + (rowGatherDims N E C wf).offCoord (ix2 e q) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N E C wf).startIndexMap from List.mem_singleton.mpr rfl)]
    have hsi : (rowGatherDims N E C wf).siIdx (ix2 e q) ⟨List.idxOf (0 : Fin 2) (rowGatherDims N E C wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowGatherDims N E C wf).start (ix2 e q) idx 1 + (rowGatherDims N E C wf).batchCoord (ix2 e q) 1
      + (rowGatherDims N E C wf).offCoord (ix2 e q) 1 = _
    rw [GatherDims.batchCoord_eq_zero _ _ _ List.not_mem_nil]
    have hne : ∀ h : (1 : Fin 2) = 0, False := fun h => Nat.one_ne_zero (congrArg Fin.val h)
    have hnm : (1 : Fin 2) ∉ (rowGatherDims N E C wf).startIndexMap := fun h => hne (List.mem_singleton.mp h)
    have hk : (1 : Fin 2) ∈ (rowGatherDims N E C wf).sKept :=
      (GatherDims.mem_sKept _ _).mpr ⟨fun h => hne (List.mem_singleton.mp h), List.not_mem_nil⟩
    unfold GatherDims.start GatherDims.offCoord
    rw [dif_neg hnm, dif_pos hk]
    simp only [Nat.zero_add]
    rfl

/-! ## The accumulating scatter of rows -/

section Scatter
variable {N E C w : Nat} (wf : ScatterDims.WF ⟨2, ![N, C]⟩ ⟨2, ![E, 1]⟩ ⟨2, ![E, C]⟩ [1] [0] [0] 1)

/-- An axis is kept exactly when it is not among the removed ones. -/
theorem mem_kept {s : Shape} (axes : List (Fin s.rank)) (a : Fin s.rank) : a ∈ s.kept axes ↔ a ∉ axes := by
  simp [Shape.kept, List.mem_filter, List.mem_finRange]

/-- On the row axis the window of update (e, q') starts at e's row number, read as a signed integer. -/
theorem scatter_start_row (idx : IVec ⟨2, ![E, 1]⟩ w) (e : Fin E) (q' : Fin C) :
    (rowScatterDims N E C wf).start (ix2 e q') idx 0 = (idx (ix2 e (0 : Fin 1))).toInt := by
  unfold ScatterDims.start
  rw [dif_pos (show (0 : Fin 2) ∈ (rowScatterDims N E C wf).scatterDimsToOperandDims from List.mem_singleton.mpr rfl)]
  have hsi : (rowScatterDims N E C wf).siIdx (ix2 e q')
      ⟨List.idxOf (0 : Fin 2) (rowScatterDims N E C wf).scatterDimsToOperandDims,
        List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- On the column axis the window starts at 0. -/
theorem scatter_start_col (idx : IVec ⟨2, ![E, 1]⟩ w) (e : Fin E) (q' : Fin C) :
    (rowScatterDims N E C wf).start (ix2 e q') idx 1 = 0 := by
  unfold ScatterDims.start
  rw [dif_neg (fun h => Nat.one_ne_zero (congrArg Fin.val (List.mem_singleton.mp h)))]

/-- The row axis is inserted: the window coordinate there is 0. -/
theorem scatter_window_row (e : Fin E) (q' : Fin C) : (rowScatterDims N E C wf).window (ix2 e q') 0 = 0 := by
  unfold ScatterDims.window
  rw [dif_neg (fun h => ((mem_kept _ _).mp h) (List.mem_singleton.mpr rfl))]

/-- On the column axis the window coordinate is the update's column. -/
theorem scatter_window_col (e : Fin E) (q' : Fin C) : (rowScatterDims N E C wf).window (ix2 e q') 1 = q'.val := by
  unfold ScatterDims.window
  rw [dif_pos ((mem_kept _ _).mpr (fun h => Nat.one_ne_zero (congrArg Fin.val (List.mem_singleton.mp h))))]
  rfl

/-- Update (e, q') lands at entry (r, q) exactly when e's row number is r and q' = q. -/
theorem resultIdx_eq_some_iff (idx : IVec ⟨2, ![E, 1]⟩ w) (e : Fin E) (q' : Fin C) (r : Fin N) (q : Fin C) :
    (rowScatterDims N E C wf).resultIdx? (ix2 e q') idx = some (ix2 r q)
      ↔ (idx (ix2 e (0 : Fin 1))).toInt = (r.val : ℤ) ∧ q' = q := by
  have hs0 := scatter_start_row wf idx e q'
  have hs1 := scatter_start_col wf idx e q'
  have hw0 := scatter_window_row wf e q'
  have hw1 := scatter_window_col wf e q'
  unfold ScatterDims.resultIdx?
  constructor
  · intro h
    split at h
    · rename_i hall
      have hf := Option.some.inj h
      have h0 : ((rowScatterDims N E C wf).start (ix2 e q') idx 0
          + ((rowScatterDims N E C wf).window (ix2 e q') 0 : ℤ)).toNat = r.val :=
        congrArg (fun f => (f 0).val) hf
      have h1 : ((rowScatterDims N E C wf).start (ix2 e q') idx 1
          + ((rowScatterDims N E C wf).window (ix2 e q') 1 : ℤ)).toNat = q.val :=
        congrArg (fun f => (f 1).val) hf
      have ha0 := (hall 0).1
      rw [hs0, hw0] at h0 ha0
      rw [hs1, hw1] at h1
      refine ⟨by omega, Fin.ext (by omega)⟩
    · exact absurd h (by simp)
  · rintro ⟨hI, rfl⟩
    have hall : ∀ a, 0 ≤ (rowScatterDims N E C wf).start (ix2 e q') idx a + ((rowScatterDims N E C wf).window (ix2 e q') a : ℤ)
        ∧ (rowScatterDims N E C wf).start (ix2 e q') idx a + ((rowScatterDims N E C wf).window (ix2 e q') a : ℤ)
          < (((⟨2, ![N, C]⟩ : Shape).size a : ℕ) : ℤ) := by
      intro a
      match a with
      | ⟨0, _⟩ =>
        show 0 ≤ (rowScatterDims N E C wf).start (ix2 e q') idx 0 + ((rowScatterDims N E C wf).window (ix2 e q') 0 : ℤ)
          ∧ (rowScatterDims N E C wf).start (ix2 e q') idx 0 + ((rowScatterDims N E C wf).window (ix2 e q') 0 : ℤ) < ((N : ℕ) : ℤ)
        rw [hs0, hw0, hI]
        have := r.isLt
        omega
      | ⟨1, _⟩ =>
        show 0 ≤ (rowScatterDims N E C wf).start (ix2 e q') idx 1 + ((rowScatterDims N E C wf).window (ix2 e q') 1 : ℤ)
          ∧ (rowScatterDims N E C wf).start (ix2 e q') idx 1 + ((rowScatterDims N E C wf).window (ix2 e q') 1 : ℤ) < ((C : ℕ) : ℤ)
        rw [hs1, hw1]
        have := q'.isLt
        omega
    rw [dif_pos hall]
    congr 1
    funext a
    refine Fin.ext ?_
    match a with
    | ⟨0, _⟩ =>
      show ((rowScatterDims N E C wf).start (ix2 e q') idx 0 + ((rowScatterDims N E C wf).window (ix2 e q') 0 : ℤ)).toNat = r.val
      rw [hs0, hw0, hI]
      omega
    | ⟨1, _⟩ =>
      show ((rowScatterDims N E C wf).start (ix2 e q') idx 1 + ((rowScatterDims N E C wf).window (ix2 e q') 1 : ℤ)).toNat = q'.val
      rw [hs1, hw1]
      omega

end Scatter

/-- THE ROW SCATTER READ AT (r, q): the base entry plus the sum, over the positions e whose row number is r, of the
    update entry (e, q). -/
theorem scatterAdd_rows_apply {N E C w : Nat}
    (wf : ScatterDims.WF ⟨2, ![N, C]⟩ ⟨2, ![E, 1]⟩ ⟨2, ![E, C]⟩ [1] [0] [0] 1)
    (x0 : (⟨2, ![N, C]⟩ : Shape).Idx → EReal) (idx : IVec ⟨2, ![E, 1]⟩ w)
    (upd : (⟨2, ![E, C]⟩ : Shape).Idx → EReal) (r : Fin N) (q : Fin C) :
    Ideal.hostScatterAdd (rowScatterDims N E C wf) x0 idx upd (ix2 r q)
      = x0 (ix2 r q) + ∑ e : Fin E, if (idx (ix2 e (0 : Fin 1))).toInt = (r.val : ℤ) then upd (ix2 e q) else 0 := by
  unfold Ideal.hostScatterAdd
  congr 1
  rw [Finset.sum_filter, sum_idx2]
  refine Finset.sum_congr rfl (fun e _ => ?_)
  rw [Finset.sum_eq_single q]
  · by_cases h : (idx (ix2 e (0 : Fin 1))).toInt = (r.val : ℤ)
    · rw [if_pos h, if_pos ((resultIdx_eq_some_iff wf idx e q r q).mpr ⟨h, rfl⟩)]
    · rw [if_neg h, if_neg (fun hh => h ((resultIdx_eq_some_iff wf idx e q r q).mp hh).1)]
  · intro q' _ hne
    rw [if_neg (fun hh => hne ((resultIdx_eq_some_iff wf idx e q' r q).mp hh).2)]
  · intro h
    exact absurd (Finset.mem_univ q) h

end Cert.LibRowScatter
-- ==== Proof.RefValue.lean ====
/-
  What the reference computes, entry by entry.

  The row numbers the reference takes are 0, 1, …, 4095 in order.  Each is a small non-negative word, so the
  take's normalisation leaves it as it is, every row is marked in range, and the row gathered at position e is
  row e of the table: what the take returns is the table itself.  The reference's result is therefore the
  product of the embeddings with the transposed table, entry (n, l) the sum over k of
  embed(n, k) · weight(l, k).
-/
import proofs.«139592_g68109591380859_cont_9to1c4b_295_13_alg».proof.Proof.RefRun
import proofs.«139592_g68109591380859_cont_9to1c4b_295_13_alg».proof.Proof.LibRowScatter
import proofs.«139592_g68109591380859_cont_9to1c4b_295_13_alg».proof.Proof.LibDenseRows
import Idealize.ShloMosaic.Lib.ValueIdx
import Idealize.ShloMosaic.Lib.IdealHost
import Idealize.ShloMosaic.Lib.Affine
import Idealize.ShloMosaic.Lib.Pipeline.Value
import Idealize.ShloMosaic.PureOps.Reduce

noncomputable section

namespace Cert.ReferenceIdeal.RefValue

open Cert.ReferenceIdeal Cert.ReferenceIdeal.Gen Cert.ReferenceIdeal.RefRun
open Idealize.ShloMosaic Idealize.ShloMosaic.ValueIdx

/-! ## Small row numbers as words -/

/-- A number below 4096, as a 32-bit word read signed, is itself. -/
theorem toInt_small (n : ℕ) (h : n < 4096) : (BitVec.ofNat 32 n).toInt = (n : ℤ) := by
  rw [BitVec.toInt_eq_toNat_cond, BitVec.toNat_ofNat]
  have : n % 2 ^ 32 = n := Nat.mod_eq_of_lt (by omega)
  rw [this]
  split
  · rfl
  · omega

/-- An and-fold of ones, started at one, is one. -/
theorem foldl_andi_ones {ι : Type} (f : ι → BitVec 1) :
    ∀ l : List ι, (∀ n ∈ l, f n = 1#1) → l.foldl (fun r n => IntOp.andi r (f n)) 1#1 = 1#1
  | [], _ => rfl
  | a :: l, h => by
    rw [List.foldl_cons, h a (List.mem_cons_self ..)]
    exact foldl_andi_ones f l fun n hn => h n (List.mem_cons_of_mem _ hn)

/-- A reduction by "and" of an array of ones, started at one, is one everywhere. -/
theorem reduce_andi_ones {s t u : Shape} {axes : List (Fin s.rank)} (x : s.Idx → BitVec 1) (init : u.Idx → BitVec 1)
    (h : s.ReducesTo axes t) (hu : 0 < u.numel) (hinit : init (Shape.Idx.first hu) = 1#1) (hx : ∀ i, x i = 1#1)
    (j : t.Idx) : Host.reduce IntOp.andi x init h hu j = 1#1 := by
  rw [Host.reduce_eq_foldl, hinit]
  exact foldl_andi_ones x _ fun n _ => hx n

/-! ## The take returns the table -/

/-- Position e of the normalised row-number column holds the number e. -/
theorem rowColumn_apply (e : Fin 4096) (z : Fin 1) : rowColumn (ix2 e z) = BitVec.ofNat 32 e.val := by
  unfold rowColumn
  refine (broadcastInDim_apply _ _ _ (ix2 e z) (ix1 e) (fun a => ?_)).trans ?_
  · match a with
    | ⟨0, _⟩ => rfl
  · show Scalar.select (IntOp.cmpi .slt (BitVec.ofNat 32 e.val) 0#32) _ (BitVec.ofNat 32 e.val) = _
    unfold Scalar.select
    rw [if_neg]
    intro hlt
    have h1 := IntOp.cmpi_slt.mp hlt
    rw [toInt_small _ e.isLt] at h1
    have h0 : (0#32 : BitVec 32).toInt = 0 := rfl
    omega

/-- Every row number is in range. -/
theorem rowInRange_apply (j : S4096.Idx) : rowInRange j = 1#1 := by
  unfold rowInRange
  refine reduce_andi_ones _ _ _ _ rfl (fun i => ?_) j
  obtain ⟨e, z, rfl⟩ : ∃ (e : Fin 4096) (z : Fin 1), i = ix2 e z := ⟨i 0, i 1, eq_ix2 i⟩
  show IntOp.andi (IntOp.cmpi .sge (rowColumn (ix2 e z)) 0#32) (IntOp.cmpi .sle (rowColumn (ix2 e z)) 4095#32) = 1#1
  rw [rowColumn_apply]
  have h0 : (0#32 : BitVec 32).toInt = 0 := rfl
  have h1 : (4095#32 : BitVec 32).toInt = 4095 := rfl
  have he := toInt_small _ e.isLt
  have hlt := e.isLt
  refine IntOp.andi_eq_one.mpr ⟨IntOp.cmpi_sge.mpr ?_, IntOp.cmpi_sle.mpr ?_⟩
  · rw [h0, he]; omega
  · rw [h1, he]; omega

variable {F : FTy → Type} [FloatOps F]

/-- What the take returns is the table. -/
theorem taken_eq (w : (⟨S4096x1024, .f32⟩ : BufTy).Contents (Elt F)) : taken w = w := by
  funext i
  obtain ⟨e, q, rfl⟩ : ∃ (e : Fin 4096) (q : Fin 1024), i = ix2 e q := ⟨i 0, i 1, eq_ix2 i⟩
  unfold taken
  rw [select_apply]
  have hm : broadcastInDim S4096x1024 ![0] bcast_S4096_S4096x1024_0 rowInRange (ix2 e q) = 1#1 := by
    refine (broadcastInDim_apply _ _ _ (ix2 e q) (ix1 e) (fun a => ?_)).trans (rowInRange_apply _)
    match a with
    | ⟨0, _⟩ => rfl
  rw [hm, select_one]
  refine (Cert.LibRowScatter.gather_rows_apply (N := 4096) (E := 4096) (C := 1024) (by decide)
    gather_S4096x1024_S4096x1_S4096x1024_1_0_n_n_0_1_11024_wf w rowColumn e q).trans ?_
  refine congrArg (fun r : Fin 4096 => w (ix2 r q)) (Fin.ext ?_)
  show min (rowColumn (ix2 e (0 : Fin 1))).toInt.toNat (4096 - 1) = e.val
  rw [rowColumn_apply, toInt_small _ e.isLt]
  have := e.isLt
  omega

/-- THE REFERENCE'S RESULT at the ideal values: the embeddings times the transposed table. -/
theorem result_eq (a : (⟨S8192x1024, .f32⟩ : BufTy).Contents (Elt Ideal)) (w : (⟨S4096x1024, .f32⟩ : BufTy).Contents (Elt Ideal)) :
    result a w = Cert.DenseRows.dense (M := 8192) (K := 1024) (N := 4096) a w := by
  unfold result
  rw [taken_eq]
  exact Cert.DenseRows.dotGeneral_eq_dense _ rfl none a w

end Cert.ReferenceIdeal.RefValue

end
-- ==== Proof.lean ====
/-
  The readout kernel against its reference, over the extended reals.

  Both programs take the embeddings (8192 rows of 1024 numbers) and the weight table (4096 rows of 1024 numbers) and
  return the 8192 × 4096 array whose entry (n, l) is the sum over k of embed(n, k) · weight(l, k).

  The kernel does it in sixteen output blocks of 1024 × 2048.  It keeps the table in a scratch buffer, written once
  at the first grid point after a change of float format — the identity on extended reals — and multiplies each
  embeddings block by the transposed rows of that cached table on the matrix unit, into a zero accumulator
  (Proof/KernelPieces.lean: what a point leaves; Proof/KernelPayload.lean: its arithmetic as a row-by-row product;
  Proof/KernelValue.lean: the scratch holds the table after every point, each block is a block of the whole product,
  the blocks tile the array).

  The reference first takes rows 0 … 4095 of the table — all of them, in order, so what it takes is the table — and
  then forms the same product in one host operation (Proof/RefRun.lean: the program as a straight line and its run;
  Proof/RefValue.lean: the take returns the table, the host product is the row-by-row product).

  No law of the extended reals is needed beyond reading both sums term by term, so nothing asks the inputs to be
  finite.  The idealized kernel is the kernel's own text (no rewrite was applied), and the three programs' runs leave
  their arguments unchanged.
-/
import proofs.«139592_g68109591380859_cont_9to1c4b_295_13_alg».proof.Defs
import proofs.«139592_g68109591380859_cont_9to1c4b_295_13_alg».proof.Proof.Gen.Kernel
import proofs.«139592_g68109591380859_cont_9to1c4b_295_13_alg».proof.Proof.Gen.Kernel.Skeleton
import proofs.«139592_g68109591380859_cont_9to1c4b_295_13_alg».proof.Proof.Gen.Kernel.Launch
import proofs.«139592_g68109591380859_cont_9to1c4b_295_13_alg».proof.Proof.Gen.Kernel.Points
import proofs.«139592_g68109591380859_cont_9to1c4b_295_13_alg».proof.Proof.Gen.Kernel.Frame
import proofs.«139592_g68109591380859_cont_9to1c4b_295_13_alg».proof.Proof.Gen.KernelIdeal
import proofs.«139592_g68109591380859_cont_9to1c4b_295_13_alg».proof.Proof.Gen.KernelIdeal.Skeleton
import proofs.«139592_g68109591380859_cont_9to1c4b_295_13_alg».proof.Proof.Gen.KernelIdeal.Launch
import proofs.«139592_g68109591380859_cont_9to1c4b_295_13_alg».proof.Proof.Gen.KernelIdeal.Points
import proofs.«139592_g68109591380859_cont_9to1c4b_295_13_alg».proof.Proof.Gen.KernelIdeal.Frame
import proofs.«139592_g68109591380859_cont_9to1c4b_295_13_alg».proof.Proof.Gen.KernelIdeal.Value
import proofs.«139592_g68109591380859_cont_9to1c4b_295_13_alg».proof.Proof.Gen.ReferenceIdeal
import proofs.«139592_g68109591380859_cont_9to1c4b_295_13_alg».proof.Proof.Gen.Pre_finite_inputs
import proofs.«139592_g68109591380859_cont_9to1c4b_295_13_alg».proof.Proof.KernelValue
import proofs.«139592_g68109591380859_cont_9to1c4b_295_13_alg».proof.Proof.RefValue
import Idealize.ShloMosaic.Adequacy
import Idealize.ShloMosaic.Init

noncomputable section

namespace Cert.Proof

open Idealize.ShloMosaic Idealize.ShloMosaic.TcCoe Idealize.SL.Sem

/-- The kernel as printed runs and leaves its arguments unchanged. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- So does the reference: its run, with the result forgotten. -/
theorem frame_referenceIdeal : Cert.frame_ReferenceIdeal := fun m ρ _ =>
  (θ_run Cert.ReferenceIdeal.defs _ _).mono (fun _ h c => (h c).2) (Cert.ReferenceIdeal.RefRun.run (F := Ideal) m ρ)

/-- No operation of the kernel was rewritten. -/
theorem preserves : Cert.preserves_Kernel_KernelIdeal := trivial

/-- Both programs end with their result array at the embeddings times the transposed table. -/
theorem algebraic : Cert.algebraic_KernelIdeal_ReferenceIdeal := by
  intro m ρ m' ρ' _ hagree
  refine ⟨_, Cert.KernelIdeal.Readout.run m ρ, ?_⟩
  refine (θ_run Cert.ReferenceIdeal.defs _ _).mono (fun _ h c => ⟨(h c).1.trans ?_, (h c).2⟩)
    (Cert.ReferenceIdeal.RefRun.run (F := Ideal) m' ρ')
  rw [Cert.ReferenceIdeal.RefValue.result_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
